-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S10000x128 1) : IVec S_ 1 :=
  let main_c_5 : IVec S_ 1 := constantI S_ 1 1#1
  let main_v17 : IVec S_ 1 := (fun x v => Host.reduce IntOp.andi x v reducesTo_S10000x128_S_d0_1 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x128 .f32) (main_arg3 : FVec F S10000x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S10000x128 .f32 := Host.absf main_arg3
  let main_cst_4 : FVec F S_ .f32 := constant S_ .f32 0x7F800000#32
  let main_v15 : FVec F S10000x128 .f32 := broadcastInDim S10000x128 ![] bcast_S_S10000x128 main_cst_4
  let main_v16 : IVec S10000x128 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S400x10000 : Shape := ⟨2, ![400, 10000]⟩
abbrev S400x128 : Shape := ⟨2, ![400, 128]⟩

abbrev nBuf : Space → Nat
  | .hbm => 5
  | .vmem => 9
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S400x128, .f32⟩
  | .local _ .vmem, ⟨5, _⟩ => ⟨S400x128, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S400x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S_, .f32⟩
  | .hbm, ⟨8, _⟩ => ⟨S10000x128, .f32⟩
  | .hbm, ⟨9, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Pieces.lean ====
/-
  What one run of the body leaves behind, as values.

  The body has two control cases. At the grid's first point it computes the product `feature · weight`
  (payload 1) from the two resident input blocks, stores it whole into the scratch array, reads the scratch
  back, and stores into the output block the maximum with zero of `adj_block · scratch + bias_block`
  (payload 2). At every later point it stores nothing into the scratch and computes the same payload 2 from
  whatever the scratch already holds.

  Each of the three statements below reads the one covering store of a case back as the payload of the
  case's loads: every load and store goes through the whole staging buffer (the unit rectangle at offset zero),
  through which a load reads the contents and a store leaves its payload.
-/
import proofs.«174804_g7103875907641_cont_9to1_m_403_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.GcnValue

open Cert.KernelIdeal Cert.KernelIdeal.Gen

variable {F : FTy → Type} [FloatOps F]

/-- The zero offsets of a whole-buffer rectangle, as the constant function. -/
theorem hz : (![0, 0] : Fin 2 → Nat) = fun _ => 0 := funext fun a => by fin_cases a <;> rfl

/-- First point: the scratch array ends at the product `feature · weight` of the two resident blocks. -/
theorem scratch_A (c : Dev nD) (i : grid0.Coords)
    (a1 : Memref sig .tc .vmem S10000x128 .f32) (h1 : a1.IsWhole) (a2 : Memref sig .tc .vmem S128x128 .f32) (h2 : a2.IsWhole)
    (a3 : Memref sig .tc .vmem S400x10000 .f32) (h3 : a3.IsWhole) (a4 : Memref sig .tc .vmem S400x128 .f32) (h4 : a4.IsWhole)
    (a5 : Memref sig .tc .vmem S400x128 .f32) (h5 : a5.IsWhole) (a6 : Memref sig .tc .vmem S10000x128 .f32) (h6 : a6.IsWhole)
    (hc : cond0_0 i) (x0 : Vec F S10000x128 .f32) (x1 : Vec F S128x128 .f32) (x2 : Vec F S400x10000 .f32) (x3 : Vec F S400x128 .f32) :
    sout0_A_0 c i a1 h1 a2 h2 a3 h3 a4 h4 a5 h5 a6 h6 hc x0 x1 x2 x3 = k0_pay1 x0 x1 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, View.ld_unit_zero (S := S10000x128) hz, View.ld_unit_zero (S := S128x128) hz]

/-- First point: the output block ends at payload 2 of the adjacency block, the product just stored (read back
    from the scratch array) and the bias block. -/
theorem out_A (c : Dev nD) (i : grid0.Coords)
    (a1 : Memref sig .tc .vmem S10000x128 .f32) (h1 : a1.IsWhole) (a2 : Memref sig .tc .vmem S128x128 .f32) (h2 : a2.IsWhole)
    (a3 : Memref sig .tc .vmem S400x10000 .f32) (h3 : a3.IsWhole) (a4 : Memref sig .tc .vmem S400x128 .f32) (h4 : a4.IsWhole)
    (a5 : Memref sig .tc .vmem S400x128 .f32) (h5 : a5.IsWhole) (a6 : Memref sig .tc .vmem S10000x128 .f32) (h6 : a6.IsWhole)
    (hc : cond0_0 i) (x0 : Vec F S10000x128 .f32) (x1 : Vec F S128x128 .f32) (x2 : Vec F S400x10000 .f32) (x3 : Vec F S400x128 .f32) :
    out0_A_4 c i a1 h1 a2 h2 a3 h3 a4 h4 a5 h5 a6 h6 hc x0 x1 x2 x3 = k0_pay2 x2 (k0_pay1 x0 x1) x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz, View.readCov_unit_zero (S := S10000x128) _ hz]
  simp only [View.readAt_eq_ld, h1.read_unread, h2.read_unread, h3.read_unread, h4.read_unread, View.ld_unit_zero (S := S10000x128) hz, View.ld_unit_zero (S := S128x128) hz, View.ld_unit_zero (S := S400x10000) hz, View.ld_unit_zero (S := S400x128) hz]

/-- Later points: the output block ends at payload 2 of the adjacency block, the scratch array's contents as the
    point before left them, and the bias block. -/
theorem out_B (c : Dev nD) (i : grid0.Coords)
    (a1 : Memref sig .tc .vmem S10000x128 .f32) (h1 : a1.IsWhole) (a2 : Memref sig .tc .vmem S128x128 .f32) (h2 : a2.IsWhole)
    (a3 : Memref sig .tc .vmem S400x10000 .f32) (h3 : a3.IsWhole) (a4 : Memref sig .tc .vmem S400x128 .f32) (h4 : a4.IsWhole)
    (a5 : Memref sig .tc .vmem S400x128 .f32) (h5 : a5.IsWhole) (a6 : Memref sig .tc .vmem S10000x128 .f32) (h6 : a6.IsWhole)
    (hc : ¬cond0_0 i) (x0 : Vec F S10000x128 .f32) (x1 : Vec F S128x128 .f32) (x2 : Vec F S400x10000 .f32) (x3 : Vec F S400x128 .f32)
    (xs : Vec F S10000x128 .f32) :
    out0_B_4 c i a1 h1 a2 h2 a3 h3 a4 h4 a5 h5 a6 h6 hc x0 x1 x2 x3 xs = k0_pay2 x2 xs x3 := by
  unfold out0_B_4
  rw [View.read_writes_eq_canon _ _ _ (cover0_B_4 c i a1 h1 a2 h2 a3 h3 a4 h4 a5 h5 a6 h6 hc x0 x1 x2 x3 xs)]
  unfold kernelRun0_B
  dsimp only
  rw [View.canon_unit_zero hz]
  simp only [View.readAt_eq_ld, h3.read_unread, h4.read_unread, h6.read_unread, View.ld_unit_zero (S := S400x10000) hz, View.ld_unit_zero (S := S400x128) hz, View.ld_unit_zero (S := S10000x128) hz]

end Cert.KernelIdeal.GcnValue

end
-- ==== Proof.Blocks.lean ====
/-
  The input windows' blocks as reads of the argument arrays.

  Window 0 stages the whole `feature` array and window 1 the whole `weight` array at every grid point (their
  block index is (0, 0) and the block is the array). Window 2 stages rows 400·t … 400·t + 399 of the adjacency
  array at point t, all 10000 columns; window 3 the same rows of the bias array, all 128 columns. An element of
  a block sits in the array at block index × block size + its coordinate inside the block, on each axis.
-/
import proofs.«174804_g7103875907641_cont_9to1_m_403_2_alg».proof.Proof.Gen.KernelIdeal.Frame.Runs
import Idealize.ShloMosaic.Lib.ValueIdx

noncomputable section

open Idealize.ShloMosaic Idealize.ShloMosaic.TcCoe Idealize.SL.Sem Idealize.ShloMosaic.ValueIdx

namespace Cert.KernelIdeal.GcnValue

open Cert.KernelIdeal Cert.KernelIdeal.Gen

variable {F : FTy → Type} [FloatOps F]
variable (m : (ℓ : Loc nD τ sig) → Buf (Elt F) ℓ)

/-- The block indices of the four input windows and the output window, decided over the grid's 25 points: the resident
    windows stay at (0, 0); the three row-blocked windows are at (t, 0) at point t. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Window 0's block at any point is the whole `feature` array. -/
theorem feature_block (c : Dev nD) (t : Fin cfg0.N) :
    (iblk m c 0 t : Vec F S10000x128 .f32) = m ((c : Thread nD τ).loc main_arg1) := by
  obtain ⟨e0, e1, -⟩ := index_facts t
  funext j
  unfold iblk
  rw [View.read_apply]
  show V m c main_arg1 _ = m (c.tc.loc main_arg1) _
  refine congrArg (m (c.tc.loc main_arg1)) ?_
  funext a
  apply Fin.ext
  match a with
  | ⟨0, _⟩ => show win0_0.index t 0 * 10000 + 1 * (j 0).val = (j 0).val; rw [e0]; omega
  | ⟨1, _⟩ => show win0_0.index t 1 * 128 + 1 * (j 1).val = (j 1).val; rw [e1]; omega

/-- Window 1's block at any point is the whole `weight` array. -/
theorem weight_block (c : Dev nD) (t : Fin cfg0.N) :
    (iblk m c 1 t : Vec F S128x128 .f32) = m ((c : Thread nD τ).loc main_arg2) := by
  obtain ⟨-, -, e0, e1, -⟩ := index_facts t
  funext j
  unfold iblk
  rw [View.read_apply]
  show V m c main_arg2 _ = m (c.tc.loc main_arg2) _
  refine congrArg (m (c.tc.loc main_arg2)) ?_
  funext a
  apply Fin.ext
  match a with
  | ⟨0, _⟩ => show win0_1.index t 0 * 128 + 1 * (j 0).val = (j 0).val; rw [e0]; omega
  | ⟨1, _⟩ => show win0_1.index t 1 * 128 + 1 * (j 1).val = (j 1).val; rw [e1]; omega

/-- Window 2's block at point t, at (p, k), is the adjacency array at row 400·t + p, column k. -/
theorem adjacency_block (c : Dev nD) (t : Fin cfg0.N) (p : Fin 400) (k : Fin 10000) (r : Fin 10000)
    (hr : r.val = 400 * t.val + p.val) :
    (iblk m c 2 t : Vec F S400x10000 .f32) (ix2 p k) = m ((c : Thread nD τ).loc main_arg0) (ix2 r k) := by
  obtain ⟨-, -, -, -, e0, e1, -⟩ := index_facts t
  unfold iblk
  rw [View.read_apply]
  show V m c main_arg0 _ = m (c.tc.loc main_arg0) _
  refine congrArg (m (c.tc.loc main_arg0)) ?_
  funext a
  apply Fin.ext
  match a with
  | ⟨0, _⟩ => show win0_2.index t 0 * 400 + 1 * p.val = r.val; rw [e0, hr]; omega
  | ⟨1, _⟩ => show win0_2.index t 1 * 10000 + 1 * k.val = k.val; rw [e1]; omega

/-- Window 3's block at point t, at (p, q), is the bias array at row 400·t + p, column q. -/
theorem bias_block (c : Dev nD) (t : Fin cfg0.N) (p : Fin 400) (q : Fin 128) (r : Fin 10000)
    (hr : r.val = 400 * t.val + p.val) :
    (iblk m c 3 t : Vec F S400x128 .f32) (ix2 p q) = m ((c : Thread nD τ).loc main_arg3) (ix2 r q) := by
  obtain ⟨-, -, -, -, -, -, e0, e1, -⟩ := index_facts t
  unfold iblk
  rw [View.read_apply]
  show V m c main_arg3 _ = m (c.tc.loc main_arg3) _
  refine congrArg (m (c.tc.loc main_arg3)) ?_
  funext a
  apply Fin.ext
  match a with
  | ⟨0, _⟩ => show win0_3.index t 0 * 400 + 1 * p.val = r.val; rw [e0, hr]; omega
  | ⟨1, _⟩ => show win0_3.index t 1 * 128 + 1 * q.val = q.val; rw [e1]; omega

end Cert.KernelIdeal.GcnValue

end
-- ==== Proof.PointValues.lean ====
/-
  What the scratch array and the output block hold after each grid point.

  The scratch array is stored once, at the first point, with the product of the two resident blocks (the whole
  `feature` array and the whole `weight` array); no later point stores into it. So after EVERY point it holds
  that one product (induction on the point). The output block after point t is therefore payload 2 of the
  adjacency block at t, that product, and the bias block at t: at the first point the product is read back
  from the scratch array in the same run, at a later point it is what the point before left.
-/
import proofs.«174804_g7103875907641_cont_9to1_m_403_2_alg».proof.Proof.Pieces
import proofs.«174804_g7103875907641_cont_9to1_m_403_2_alg».proof.Proof.Blocks

noncomputable section

open Idealize.ShloMosaic Idealize.ShloMosaic.TcCoe Idealize.SL.Sem
open Idealize.ShloMosaic.Pipeline (Dat)

namespace Cert.KernelIdeal.GcnValue

open Cert.KernelIdeal Cert.KernelIdeal.Gen

variable {F : FTy → Type} [FloatOps F]
variable (m : (ℓ : Loc nD τ sig) → Buf (Elt F) ℓ)

/-- The product the scratch array holds: payload 1 of the whole `feature` and `weight` arrays. -/
def held (c : Dev nD) : Vec F S10000x128 .f32 :=
  k0_pay1 (m ((c : Thread nD τ).loc main_arg1)) (m ((c : Thread nD τ).loc main_arg2))

/-- At a point of the first control case the scratch array ends at the product. -/
theorem scratch_first (c : Dev nD) (t : Fin cfg0.N) (h0 : t.val % 25 = 0) : (outsAt0 m c t.val t.isLt).2 = held m c := by
  rw [outsAt0_A m c t h0]
  dsimp only
  refine (scratch_A c (grid0.coords t) (ms0_0 t) (hs0_0 t) (ms0_1 t) (hs0_1 t) (ms0_2 t) (hs0_2 t)
    (ms0_3 t) (hs0_3 t) (ms0_4 t) (hs0_4 t) scM0_0 (Memref.isWhole_whole _) ((hcond0_0 t).mpr h0)
    (iblk m c 0 t) (iblk m c 1 t) (iblk m c 2 t) (iblk m c 3 t)).trans ?_
  unfold held
  rw [feature_block m c t, weight_block m c t]

/-- After every point the scratch array holds the product: no later point stores into it. -/
theorem scratch_eq (c : Dev nD) : ∀ (n : ℕ) (h : n < cfg0.N), (outsAt0 m c n h).2 = held m c
  | 0, h => scratch_first m c ⟨0, h⟩ rfl
  | n + 1, h => by
    have hN : cfg0.N = 25 := N_0
    have hB : ¬(⟨n + 1, h⟩ : Fin cfg0.N).val % 25 = 0 := by dsimp only; omega
    rw [outsAt0_B m c ⟨n + 1, h⟩ hB]
    show (outsAt0 m c n _).2 = _
    exact scratch_eq c n _

/-- After point t the output block holds payload 2 of the adjacency block, the product, and the bias block. -/
theorem out_eq (c : Dev nD) (t : Fin cfg0.N) :
    (outsAt0 m c t.val t.isLt).1 = k0_pay2 (iblk m c 2 t) (held m c) (iblk m c 3 t) := by
  by_cases h0 : t.val % 25 = 0
  · rw [outsAt0_A m c t h0]
    dsimp only
    refine (out_A c (grid0.coords t) (ms0_0 t) (hs0_0 t) (ms0_1 t) (hs0_1 t) (ms0_2 t) (hs0_2 t)
      (ms0_3 t) (hs0_3 t) (ms0_4 t) (hs0_4 t) scM0_0 (Memref.isWhole_whole _) ((hcond0_0 t).mpr h0)
      (iblk m c 0 t) (iblk m c 1 t) (iblk m c 2 t) (iblk m c 3 t)).trans ?_
    unfold held
    rw [feature_block m c t, weight_block m c t]
  · rw [outsAt0_B m c t h0]
    dsimp only
    refine (out_B c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun h => h0 ((hcond0_0 t).mp h))
      (iblk m c 0 t) (iblk m c 1 t) (iblk m c 2 t) (iblk m c 3 t)
      (outsAt0 m c (t.val - 1) (Nat.lt_of_le_of_lt (Nat.sub_le _ _) t.isLt)).2).trans ?_
    rw [scratch_eq m c (t.val - 1) _]

end Cert.KernelIdeal.GcnValue

end
-- ==== Proof.Payloads.lean ====
/-
  The two payloads of the body, read at an index over the extended reals.

  Payload 1 is a matrix product into the zero accumulator: at (k, q) it is the sum over j of
  `f (k, j) * w (j, q)`. Payload 2 is a matrix product into the zero accumulator, plus a block, maximum with
  zero: at (p, q) it is `max (∑ k, a (p, k) * s (k, q) + b (p, q)) 0`.

  At the exact instance a matrix product read at an output index is the sum, over the one contracted axis, of the
  products of the operands at the dot's operand indices; those operand indices at output (r, c) and
  contraction index k are (r, k) and (k, c).
-/
import proofs.«174804_g7103875907641_cont_9to1_m_403_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.GcnValue

open Cert.KernelIdeal Cert.KernelIdeal.Gen

/-! ## The operand indices of the two dots -/

theorem fw_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem fw_lhs1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem fw_rhs0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem fw_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem out_lhs0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem out_lhs1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem out_rhs0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem out_rhs1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-! ## The payloads at an index -/

/-- Payload 1 at (k, q): the sum over j of `f (k, j) * w (j, q)`. -/
theorem pay1_apply (f : Vec Ideal S10000x128 .f32) (w : Vec Ideal S128x128 .f32) (k : Fin 10000) (q : Fin 128) :
    k0_pay1 (F := Ideal) f w (ix2 k q) = ∑ j : Fin 128, f (ix2 k j) * w (ix2 j q) := by
  unfold k0_pay1
  rw [shapeCast_self]
  simp only [matmul]
  refine (Ideal.matmul_constant_zero_apply dot_S10000x128_S128x128_S10000x128_1_0_0_1_n_n none f w (ix2 k q)).trans ?_
  rw [← Equiv.sum_comp (contrEquiv1 dot_S10000x128_S128x128_S10000x128_1_0_0_1_n_n 128 rfl rfl).symm]
  refine Finset.sum_congr rfl fun j _ => ?_
  have hk := contrEquiv1_symm_val dot_S10000x128_S128x128_S10000x128_1_0_0_1_n_n 128 rfl rfl j
  have el : dot_S10000x128_S128x128_S10000x128_1_0_0_1_n_n.lhsIdx (ix2 k q) ((contrEquiv1 dot_S10000x128_S128x128_S10000x128_1_0_0_1_n_n 128 rfl rfl).symm j) = ix2 k j := funext fun a => Fin.ext (by
    match a with
    | ⟨0, _⟩ => exact fw_lhs0 _ _
    | ⟨1, _⟩ => exact (fw_lhs1 _ _).trans hk)
  have er : dot_S10000x128_S128x128_S10000x128_1_0_0_1_n_n.rhsIdx (ix2 k q) ((contrEquiv1 dot_S10000x128_S128x128_S10000x128_1_0_0_1_n_n 128 rfl rfl).symm j) = ix2 j q := funext fun a => Fin.ext (by
    match a with
    | ⟨0, _⟩ => exact (fw_rhs0 _ _).trans hk
    | ⟨1, _⟩ => exact fw_rhs1 _ _)
  rw [el, er]

/-- Payload 2 at (p, q): `max (∑ k, a (p, k) * s (k, q) + b (p, q)) 0`. -/
theorem pay2_apply (a : Vec Ideal S400x10000 .f32) (s : Vec Ideal S10000x128 .f32) (b : Vec Ideal S400x128 .f32)
    (p : Fin 400) (q : Fin 128) :
    k0_pay2 (F := Ideal) a s b (ix2 p q) = max ((∑ k : Fin 10000, a (ix2 p k) * s (ix2 k q)) + b (ix2 p q)) 0 := by
  unfold k0_pay2
  simp only [matmul]
  rw [maximumf_apply, addf_apply, broadcast_apply]
  have hm : FloatOps.matmul (F := Ideal) (φ₁ := .f32) (φ₂ := .f32) dot_S400x10000_S10000x128_S400x128_1_0_0_1_n_n none a s (constant (F := Ideal) S400x128 .f32 0x00000000#32) (ix2 p q)
      = ∑ k : Fin 10000, a (ix2 p k) * s (ix2 k q) := by
    refine (Ideal.matmul_constant_zero_apply dot_S400x10000_S10000x128_S400x128_1_0_0_1_n_n none a s (ix2 p q)).trans ?_
    rw [← Equiv.sum_comp (contrEquiv1 dot_S400x10000_S10000x128_S400x128_1_0_0_1_n_n 10000 rfl rfl).symm]
    refine Finset.sum_congr rfl fun k _ => ?_
    have hk := contrEquiv1_symm_val dot_S400x10000_S10000x128_S400x128_1_0_0_1_n_n 10000 rfl rfl k
    have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
      match a with
      | ⟨0, _⟩ => exact out_lhs0 _ _
      | ⟨1, _⟩ => exact (out_lhs1 _ _).trans hk)
    have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
      match a with
      | ⟨0, _⟩ => exact (out_rhs0 _ _).trans hk
      | ⟨1, _⟩ => exact out_rhs1 _ _)
    rw [el, er]
  rw [hm]
  show max _ (Ideal.ofBits .f32 0x00000000#32) = _
  rw [Ideal.ofBits_zero_f32]

end Cert.KernelIdeal.GcnValue

end
-- ==== Proof.MatAssoc.lean ====
/-
  Associativity of the matrix product over the extended reals, for matrices with finite entries.

  For a row `a : K → EReal`, a matrix `b : K → J → EReal` and a column `w : J → EReal`, all of whose
  entries are real numbers,
      ∑ k, a k * (∑ j, b k j * w j)  =  ∑ j, (∑ k, a k * b k j) * w j .
  On the extended reals multiplication does not distribute over addition in general (an infinite factor
  against a sum of opposite signs), so the entries are first written as coercions of reals; both sides are
  then the coercion of the real double sum ∑ k, ∑ j, a k * b k j * w j, by distributivity and an exchange of
  the two summations in ℝ.
-/
import Mathlib.Data.EReal.Inv
import Mathlib.Algebra.BigOperators.Group.Finset.Basic
import Mathlib.Algebra.BigOperators.Ring.Finset

namespace GcnAlgebra

open Finset

/-- A finite sum of coerced reals is the coercion of the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- Associativity of the triple product on real entries, stated on the coercions. -/
theorem assoc_coe {K J : Type*} [Fintype K] [Fintype J] (a : K → ℝ) (b : K → J → ℝ) (w : J → ℝ) :
    ∑ k, (a k : EReal) * ∑ j, (b k j : EReal) * (w j : EReal)
      = ∑ j, (∑ k, (a k : EReal) * (b k j : EReal)) * (w j : EReal) := by
  simp only [← EReal.coe_mul, sum_coe]
  congr 1
  simp only [Finset.mul_sum, Finset.sum_mul]
  rw [Finset.sum_comm]
  refine Finset.sum_congr rfl fun j _ => Finset.sum_congr rfl fun k _ => ?_
  ring

/-- Associativity of the triple product for extended-real entries that are all finite. -/
theorem assoc_of_finite {K J : Type*} [Fintype K] [Fintype J] (a : K → EReal) (b : K → J → EReal) (w : J → EReal)
    (ha : ∀ k, a k ≠ ⊤ ∧ a k ≠ ⊥) (hb : ∀ k j, b k j ≠ ⊤ ∧ b k j ≠ ⊥) (hw : ∀ j, w j ≠ ⊤ ∧ w j ≠ ⊥) :
    ∑ k, a k * ∑ j, b k j * w j = ∑ j, (∑ k, a k * b k j) * w j := by
  lift a to K → ℝ using ha
  lift w to J → ℝ using hw
  have hb' : ∀ k, ∀ j, b k j ≠ ⊤ ∧ b k j ≠ ⊥ := hb
  lift b to K → J → ℝ using hb'
  exact assoc_coe a b w

end GcnAlgebra
-- ==== Proof.GcnSpec.lean ====
/-
  The graph-convolution layer as one function of its four argument arrays, in two arrangements.

  With `adj` of shape [10000, 10000], `feat` of shape [10000, 128], `w` of shape [128, 128] and `bias` of
  shape [10000, 128], the layer's entry at row r and column q is

      max ((adj · feat · w) (r, q) + bias (r, q)) 0 .

  One arrangement multiplies `feat · w` first and then `adj` by that product: the sum over k of
  `adj (r, k)` times the sum over j of `feat (k, j) * w (j, q)`. The other multiplies `adj · feat` first: the
  sum over j of (the sum over k of `adj (r, k) * feat (k, j)`) times `w (j, q)`. For finite entries the two
  agree, by associativity of the matrix product; the bias and the maximum with zero are the same on both sides.
-/
import proofs.«174804_g7103875907641_cont_9to1_m_403_2_alg».proof.Proof.MatAssoc
import Idealize.ShloMosaic.Lib.ValueIdx

noncomputable section

namespace GcnSpec

open Idealize.ShloMosaic Idealize.ShloMosaic.ValueIdx

abbrev SAdj : Shape := ⟨2, ![10000, 10000]⟩
abbrev SFeat : Shape := ⟨2, ![10000, 128]⟩
abbrev SW : Shape := ⟨2, ![128, 128]⟩

variable (adj : SAdj.Idx → EReal) (feat : SFeat.Idx → EReal) (w : SW.Idx → EReal) (bias : SFeat.Idx → EReal)

/-- The layer at (r, q) with `feat · w` multiplied first. -/
def productFirst (r : Fin 10000) (q : Fin 128) : EReal :=
  max ((∑ k : Fin 10000, adj (ix2 r k) * ∑ j : Fin 128, feat (ix2 k j) * w (ix2 j q)) + bias (ix2 r q)) 0

/-- The layer at (r, q) with `adj · feat` multiplied first. -/
def aggregateFirst (r : Fin 10000) (q : Fin 128) : EReal :=
  max ((∑ j : Fin 128, (∑ k : Fin 10000, adj (ix2 r k) * feat (ix2 k j)) * w (ix2 j q)) + bias (ix2 r q)) 0

/-- For finite entries of the three factors the two arrangements agree at every (r, q). -/
theorem productFirst_eq_aggregateFirst (hadj : ∀ i, adj i ≠ ⊤ ∧ adj i ≠ ⊥) (hfeat : ∀ i, feat i ≠ ⊤ ∧ feat i ≠ ⊥)
    (hw : ∀ i, w i ≠ ⊤ ∧ w i ≠ ⊥) (r : Fin 10000) (q : Fin 128) :
    productFirst adj feat w bias r q = aggregateFirst adj feat w bias r q := by
  unfold productFirst aggregateFirst
  rw [GcnAlgebra.assoc_of_finite (fun k : Fin 10000 => adj (ix2 r k)) (fun (k : Fin 10000) (j : Fin 128) => feat (ix2 k j))
    (fun j : Fin 128 => w (ix2 j q)) (fun k => hadj _) (fun k j => hfeat _) (fun j => hw _)]

/-- The two arrangements as whole arrays of shape [10000, 128]. -/
def productFirstArr : SFeat.Idx → EReal := fun i => productFirst adj feat w bias ⟨(i 0).val, idx2_lt0 i⟩ ⟨(i 1).val, idx2_lt1 i⟩
def aggregateFirstArr : SFeat.Idx → EReal := fun i => aggregateFirst adj feat w bias ⟨(i 0).val, idx2_lt0 i⟩ ⟨(i 1).val, idx2_lt1 i⟩

theorem productFirstArr_ix2 (r : Fin 10000) (q : Fin 128) :
    productFirstArr adj feat w bias (ix2 r q) = productFirst adj feat w bias r q := rfl

theorem aggregateFirstArr_ix2 (r : Fin 10000) (q : Fin 128) :
    aggregateFirstArr adj feat w bias (ix2 r q) = aggregateFirst adj feat w bias r q := rfl

/-- For finite entries of the three factors the two arrays are equal. -/
theorem productFirstArr_eq_aggregateFirstArr (hadj : ∀ i, adj i ≠ ⊤ ∧ adj i ≠ ⊥) (hfeat : ∀ i, feat i ≠ ⊤ ∧ feat i ≠ ⊥)
    (hw : ∀ i, w i ≠ ⊤ ∧ w i ≠ ⊥) : productFirstArr adj feat w bias = aggregateFirstArr adj feat w bias :=
  funext fun _ => productFirst_eq_aggregateFirst adj feat w bias hadj hfeat hw _ _

end GcnSpec

end
-- ==== Proof.KernelArray.lean ====
/-
  The kernel's result array after the run is the layer with `feature · weight` multiplied first.

  Point t writes back the output block of rows 400·t … 400·t + 399. Its entry (p, q) is payload 2 of the
  adjacency block at t, the product held by the scratch array, and the bias block at t, which at the exact
  instance is `max (∑ k, adj (400·t + p, k) * (∑ j, feature (k, j) * weight (j, q)) + bias (400·t + p, q)) 0`:
  block t of the layer array. The 25 blocks tile the 10000 rows (row r is in block r / 400), so the whole array
  ends at the layer.
-/
import proofs.«174804_g7103875907641_cont_9to1_m_403_2_alg».proof.Proof.PointValues
import proofs.«174804_g7103875907641_cont_9to1_m_403_2_alg».proof.Proof.Payloads
import proofs.«174804_g7103875907641_cont_9to1_m_403_2_alg».proof.Proof.GcnSpec
import proofs.«174804_g7103875907641_cont_9to1_m_403_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.GcnValue

open Cert.KernelIdeal Cert.KernelIdeal.Gen

variable (m : (ℓ : Loc nD τ sig) → Buf (Elt Ideal) ℓ) (ρ : Dev nD → PrngReg)

/-- The four argument arrays at launch, as arrays of extended reals. -/
abbrev adjA (c : Dev nD) : Vec Ideal S10000x10000 .f32 := m ((c : Thread nD τ).loc main_arg0)
abbrev featA (c : Dev nD) : Vec Ideal S10000x128 .f32 := m ((c : Thread nD τ).loc main_arg1)
abbrev wA (c : Dev nD) : Vec Ideal S128x128 .f32 := m ((c : Thread nD τ).loc main_arg2)
abbrev biasA (c : Dev nD) : Vec Ideal S10000x128 .f32 := m ((c : Thread nD τ).loc main_arg3)

/-- The layer array of the launch contents of the four arguments, `feature · weight` multiplied first. -/
abbrev layer (c : Dev nD) : Buf (Elt Ideal) ((c : Thread nD τ).loc main_v0) :=
  GcnSpec.productFirstArr (adjA m c) (featA m c) (wA m c) (biasA m c)

/-- The product held by the scratch array at (k, q). -/
theorem held_apply (c : Dev nD) (k : Fin 10000) (q : Fin 128) :
    held m c (ix2 k q) = ∑ j : Fin 128, featA m c (ix2 k j) * wA m c (ix2 j q) :=
  pay1_apply (featA m c) (wA m c) k q

/-- What point t leaves in the output block, at an index y of the block, is the layer at row 400·t + y₀, column y₁. -/
theorem block_entry (c : Dev nD) (t : Fin cfg0.N) (y : S400x128.Idx) (r : Fin 10000) (q : Fin 128)
    (hr : r.val = 400 * t.val + (y 0).val) (hq : q.val = (y 1).val) :
    k0_pay2 (F := Ideal) (iblk m c 2 t) (held m c) (iblk m c 3 t) y
      = GcnSpec.productFirst (adjA m c) (featA m c) (wA m c) (biasA m c) r q := by
  obtain ⟨p, q', rfl⟩ : ∃ (p : Fin 400) (q' : Fin 128), y = ix2 p q' := ⟨y 0, y 1, eq_ix2 y⟩
  obtain rfl : q = q' := Fin.ext hq
  refine (pay2_apply (iblk m c 2 t) (held m c) (iblk m c 3 t) p q).trans ?_
  unfold GcnSpec.productFirst
  rw [bias_block m c t p q r hr]
  refine congrArg (fun s => max (s + biasA m c (ix2 r q)) 0) ?_
  refine Finset.sum_congr rfl fun k _ => ?_
  rw [adjacency_block m c t p k r hr, held_apply m c k q]

/-- An index of the result array is in point t's block iff each coordinate is in the block's range on its axis. -/
theorem mem_block (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v0).slice (win0_4.rect t)).set ↔ _
  rw [View.set_slice_whole, Rect.mem_set_unit]
  exact Iff.rfl

/-- What point t writes back is block t of the layer array. -/
theorem flushed_eq (c : Dev nD) (t : Fin cfg0.N) :
    (dats m 0 c).flushed 4 t = ((cfg0.win 4).blk t).view.read (Elt Ideal) (layer m c) := by
  rw [Value.flushed4, out_eq m c t]
  obtain ⟨-, -, -, -, -, -, -, -, e0, e1⟩ := index_facts t
  have hN : cfg0.N = 25 := N_0
  have ht : t.val < cfg0.N := t.isLt
  funext y
  have hy0 : (y 0).val < 400 := (y 0).isLt
  have hy1 : (y 1).val < 128 := (y 1).isLt
  have hr : 400 * t.val + (y 0).val < 10000 := by omega
  have hemb : ((cfg0.win 4).blk t).view.emb y
      = ix2 (⟨400 * t.val + (y 0).val, hr⟩ : Fin 10000) (⟨(y 1).val, hy1⟩ : Fin 128) := by
    funext a
    apply Fin.ext
    match a with
    | ⟨0, _⟩ => show win0_4.index t 0 * 400 + 1 * (y 0).val = 400 * t.val + (y 0).val; rw [e0]; omega
    | ⟨1, _⟩ => show win0_4.index t 1 * 128 + 1 * (y 1).val = (y 1).val; rw [e1]; omega
  show k0_pay2 (F := Ideal) (iblk m c 2 t) (held m c) (iblk m c 3 t) y = layer m c (((cfg0.win 4).blk t).view.emb y)
  rw [hemb]
  exact block_entry m c t y ⟨400 * t.val + (y 0).val, hr⟩ ⟨(y 1).val, hy1⟩ rfl rfl

/-- Every index of the result array is in the block of the point its row belongs to. -/
theorem cover (i : S10000x128.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  have hlt : (i 0).val / 400 < cfg0.N := by rw [hN]; omega
  obtain ⟨-, -, -, -, -, -, -, -, e0, e1⟩ := index_facts ⟨(i 0).val / 400, hlt⟩
  have e0' : win0_4.index ⟨(i 0).val / 400, hlt⟩ 0 = (i 0).val / 400 := e0
  refine ⟨⟨(i 0).val / 400, hlt⟩, flush0_4 _, ?_⟩
  rw [mem_block]
  intro a
  match a with
  | ⟨0, _⟩ =>
    show win0_4.index ⟨(i 0).val / 400, hlt⟩ 0 * 400 ≤ (i 0).val ∧ (i 0).val < win0_4.index ⟨(i 0).val / 400, hlt⟩ 0 * 400 + 400
    rw [e0']; omega
  | ⟨1, _⟩ =>
    show win0_4.index ⟨(i 0).val / 400, hlt⟩ 1 * 128 ≤ (i 1).val ∧ (i 1).val < win0_4.index ⟨(i 0).val / 400, hlt⟩ 1 * 128 + 128
    rw [e1]; omega

/-- The result array after the run is the layer array. -/
theorem final (c : Dev nD) : (dats m 0 c).arrAt 4 cfg0.N = layer m c :=
  (dats m 0 c).arrAt_eq_of_cover 4 (layer m c) (fun t _ => flushed_eq m c t) cover

/-- The kernel's run, read: the result array at the layer, the four arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.GcnValue

end
-- ==== Proof.RefSpec.lean ====
/-
  The reference's result, index by index.

  The reference multiplies `adj · feat` first, then by `w`, adds `bias` and takes the maximum with zero (its
  `relu` is `max x 0` against a broadcast zero). Read one operation at a time at (r, q): the outer product sums
  over j the inner product at (r, j) times `w (j, q)`; the inner product at (r, j) sums over k
  `adj (r, k) * feat (k, j)`. That is the layer with the aggregation multiplied first.
-/
import proofs.«174804_g7103875907641_cont_9to1_m_403_2_alg».proof.Proof.Gen.ReferenceIdeal.Read
import proofs.«174804_g7103875907641_cont_9to1_m_403_2_alg».proof.Proof.GcnSpec

noncomputable section

open Idealize.ShloMosaic Idealize.ShloMosaic.ValueIdx

namespace Cert.ReferenceIdeal.GcnValue

open Cert.ReferenceIdeal Cert.ReferenceIdeal.Read

/-- The reference's result array is the layer with `adj · feat` multiplied first. -/
theorem reference_eq (x0 : (⟨S10000x10000, .f32⟩ : BufTy).Contents (Elt Ideal)) (x1 : (⟨S10000x128, .f32⟩ : BufTy).Contents (Elt Ideal))
    (x2 : (⟨S128x128, .f32⟩ : BufTy).Contents (Elt Ideal)) (x3 : (⟨S10000x128, .f32⟩ : BufTy).Contents (Elt Ideal)) :
    val_main_v3 (F := Ideal) x0 x1 x2 x3 = GcnSpec.aggregateFirstArr x0 x1 x2 x3 := by
  funext i
  obtain ⟨r, q, rfl⟩ : ∃ (r : Fin 10000) (q : Fin 128), i = ix2 r q := ⟨i 0, i 1, eq_ix2 i⟩
  rw [GcnSpec.aggregateFirstArr_ix2]
  unfold GcnSpec.aggregateFirst
  have e1 : ∀ j : Fin 128, lidx_main_v1 (ix2 r q) j = ix2 r j := fun j =>
    funext fun a => Fin.ext (by match a with | ⟨0, _⟩ => rfl | ⟨1, _⟩ => rfl)
  have e2 : ∀ j : Fin 128, ridx_main_v1 (ix2 r q) j = ix2 j q := fun j =>
    funext fun a => Fin.ext (by match a with | ⟨0, _⟩ => rfl | ⟨1, _⟩ => rfl)
  have e3 : ∀ (j : Fin 128) (k : Fin 10000), lidx_main_v0 (ix2 r j) k = ix2 r k := fun j k =>
    funext fun a => Fin.ext (by match a with | ⟨0, _⟩ => rfl | ⟨1, _⟩ => rfl)
  have e4 : ∀ (j : Fin 128) (k : Fin 10000), ridx_main_v0 (ix2 r j) k = ix2 k j := fun j k =>
    funext fun a => Fin.ext (by match a with | ⟨0, _⟩ => rfl | ⟨1, _⟩ => rfl)
  rw [val_main_v3_apply, val_main_v2_apply, val_main_v1_apply, val_main_call0_v0_apply, val_main_call0_cst_apply]
  simp only [val_main_v0_apply, e1, e2, e3, e4, Ideal.maximumf_def, Ideal.addf_def, Ideal.ofBits_def, Ideal.ofBits_zero_f32]

end Cert.ReferenceIdeal.GcnValue

end
-- ==== Proof.Finite.lean ====
/-
  From the precondition to finiteness of every entry.

  The precondition is the conjunction, over the four argument arrays, of "every entry x has |x| < +inf": an
  `and` of four all-reductions, each over the comparison of the entrywise absolute value with the pattern of
  +inf. Read back: the conjunction is 1 exactly when each reduction is 1; an all-reduction by `and` that is 1
  had a 1 at every entry; and on the extended reals `max x (-x) < ⊤` says x is neither ⊤ nor ⊥.
-/
import proofs.«174804_g7103875907641_cont_9to1_m_403_2_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

open Idealize.ShloMosaic

namespace Cert.Pre_finite_inputs.Finite

open Cert.Pre_finite_inputs

variable [Cert.Pre_finite_inputs.Facts]
open Cert.Pre_finite_inputs.Facts

instance : Subsingleton S_.Idx := ⟨fun a b => funext fun d => d.elim0⟩

/-- The pattern 0x7F800000 denotes +inf. -/
theorem inf_pattern : Ideal.ofBits .f32 0x7F800000#32 = (⊤ : EReal) := by
  simp [Ideal.ofBits, Ideal.ieee]

/-- An extended real whose absolute value is below +inf is a real number. -/
theorem finite_of_abs_lt (x : EReal) (h : Ideal.cmp .olt (max x (-x)) (Ideal.ofBits .f32 0x7F800000#32) = 1#1) :
    x ≠ ⊤ ∧ x ≠ ⊥ := by
  rw [inf_pattern] at h
  have hlt : max x (-x) < ⊤ := by
    by_contra hn
    have : Ideal.cmp .olt (max x (-x)) ⊤ = 0#1 := by simp [Ideal.cmp, hn]
    rw [this] at h
    exact absurd h (by decide)
  constructor
  · rintro rfl
    simp at hlt
  · rintro rfl
    simp at hlt

/-- One array's test: if the all-reduction of `|x| < +inf` is 1, every entry of the array is a real number. -/
theorem finite_of_all {s : Shape} {axes : List (Fin s.rank)} (x : FVec Ideal s .f32) (bc : S_.BroadcastsInDim s (![] : Fin 0 → Fin s.rank))
    (hr : s.ReducesTo axes S_) (hu : 0 < S_.numel)
    (e : Host.reduce IntOp.andi (cmpf .olt (Host.absf x) (broadcastInDim s ![] bc (constant (F := Ideal) S_ .f32 0x7F800000#32)))
      (constantI S_ 1 1#1) hr hu ValueIdx.ix0 = 1#1) (i : s.Idx) : x i ≠ ⊤ ∧ x i ≠ ⊥ := by
  have hi := Host.reduce_andi_all _ _ hr hu ValueIdx.ix0 e i
  refine finite_of_abs_lt (x i) ?_
  have hb : broadcastInDim s ![] bc (constant (F := Ideal) S_ .f32 0x7F800000#32) i = Ideal.ofBits .f32 0x7F800000#32 :=
    broadcastInDim_apply _ bc _ i ValueIdx.ix0 (fun a => a.elim0)
  show Ideal.cmp .olt (max (x i) (-(x i))) (Ideal.ofBits .f32 0x7F800000#32) = 1#1
  rw [← hb]
  exact hi

/-- The precondition gives finiteness of every entry of the four arrays. -/
theorem finite_of_pre (a0 : FVec Ideal S10000x10000 .f32) (a1 : FVec Ideal S10000x128 .f32) (a2 : FVec Ideal S128x128 .f32)
    (a3 : FVec Ideal S10000x128 .f32) (h : fn (F := Ideal) a0 a1 a2 a3 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) ∧ (∀ i, a3 i ≠ ⊤ ∧ a3 i ≠ ⊥) := by
  have h0 := congrFun h ValueIdx.ix0
  dsimp only [fn, fn_part1, andi] at h0
  obtain ⟨h012, e3⟩ := IntOp.andi_eq_one.1 h0
  obtain ⟨h01, e2⟩ := IntOp.andi_eq_one.1 h012
  obtain ⟨e0, e1⟩ := IntOp.andi_eq_one.1 h01
  exact ⟨finite_of_all a0 _ _ _ e0, finite_of_all a1 _ _ _ e1, finite_of_all a2 _ _ _ e2, finite_of_all a3 _ _ _ e3⟩

end Cert.Pre_finite_inputs.Finite

end
-- ==== Proof.lean ====
/-
  The graph-convolution layer `relu (adj · feature · weight + bias)`: the kernel against its reference.

  The kernel reassociates the triple product. At the grid's first point it multiplies `feature · weight`
  ([10000, 128] by [128, 128]) once into a scratch array that it keeps for the rest of the grid; at each of the
  25 points it multiplies a block of 400 rows of `adj` by that product, adds the same rows of `bias` and takes
  the maximum with zero. The reference multiplies `adj · feature` first, then by `weight`, adds `bias` and
  takes the maximum with zero.

  Over the extended reals the two results agree entry by entry: entry (r, q) of the kernel's result is
  `max (∑ k, adj (r, k) * (∑ j, feature (k, j) * weight (j, q)) + bias (r, q)) 0`, the reference's is
  `max (∑ j, (∑ k, adj (r, k) * feature (k, j)) * weight (j, q) + bias (r, q)) 0`, and the two double sums are
  equal by associativity of the matrix product. That law distributes a factor over a sum, which fails at
  infinite entries, so it is used under the precondition that every input entry is finite; the entries are then
  real numbers and the law is the one of real matrices. A matrix product into a zero accumulator and the host's
  dot product are both the plain sum of products at the exact instance, so nothing else separates the two
  sides.

  The modules: `MatAssoc` (the law), `GcnSpec` (the layer in its two arrangements, and their equality for
  finite entries), `Pieces` / `PointValues` (what each grid point leaves in the scratch array and the output
  block), `Blocks` (the input blocks as reads of the argument arrays), `Payloads` (the body's two payloads at
  an index), `KernelArray` (the kernel's result array is the layer), `RefSpec` (the reference's result array is
  the layer), `Finite` (the precondition gives finite entries). The three frames are the generated frame
  runs; the idealization rewrote nothing.
-/
import proofs.«174804_g7103875907641_cont_9to1_m_403_2_alg».proof.Defs
import proofs.«174804_g7103875907641_cont_9to1_m_403_2_alg».proof.Proof.Gen.Kernel
import proofs.«174804_g7103875907641_cont_9to1_m_403_2_alg».proof.Proof.Gen.Kernel.Frame
import proofs.«174804_g7103875907641_cont_9to1_m_403_2_alg».proof.Proof.Gen.KernelIdeal
import proofs.«174804_g7103875907641_cont_9to1_m_403_2_alg».proof.Proof.Gen.KernelIdeal.Frame
import proofs.«174804_g7103875907641_cont_9to1_m_403_2_alg».proof.Proof.Gen.KernelIdeal.Value
import proofs.«174804_g7103875907641_cont_9to1_m_403_2_alg».proof.Proof.Gen.ReferenceIdeal
import proofs.«174804_g7103875907641_cont_9to1_m_403_2_alg».proof.Proof.Gen.ReferenceIdeal.Run
import proofs.«174804_g7103875907641_cont_9to1_m_403_2_alg».proof.Proof.Gen.ReferenceIdeal.Read
import proofs.«174804_g7103875907641_cont_9to1_m_403_2_alg».proof.Proof.Gen.Pre_finite_inputs
import proofs.«174804_g7103875907641_cont_9to1_m_403_2_alg».proof.Proof.KernelArray
import proofs.«174804_g7103875907641_cont_9to1_m_403_2_alg».proof.Proof.RefSpec
import proofs.«174804_g7103875907641_cont_9to1_m_403_2_alg».proof.Proof.Finite
import Idealize.ShloMosaic.Adequacy
import Idealize.ShloMosaic.Init

noncomputable section

namespace Cert.Proof

open Idealize.ShloMosaic Idealize.SL.Sem

/-- The kernel runs and leaves its arguments unchanged (the generated frame run). -/
theorem frame_kernel : Cert.frame_Kernel := fun m ρ _ => Cert.Kernel.Gen.frame m ρ

/-- The idealized kernel runs and leaves its arguments unchanged (the generated frame run). -/
theorem frame_kernelIdeal : Cert.frame_KernelIdeal := fun m ρ _ => Cert.KernelIdeal.Gen.frame m ρ

/-- The reference runs and leaves its arguments unchanged (its generated run, the result dropped). -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, all finite, both programs end with the layer array: the kernel with
    `feature · weight` multiplied first, the reference with `adj · feature` multiplied first, equal by associativity. -/
theorem algebraic : Cert.algebraic_KernelIdeal_ReferenceIdeal := by
  intro m ρ m' ρ' hpre hagree
  refine ⟨fun c => Cert.KernelIdeal.GcnValue.layer m c, Cert.KernelIdeal.GcnValue.run m ρ, ?_⟩
  refine (θ_run Cert.ReferenceIdeal.defs _ _).mono (fun _ h c => ⟨(h c).1.trans ?_, (h c).2⟩)
    (Cert.ReferenceIdeal.Value.run (F := Ideal) m' ρ')
  obtain ⟨hadj, hfeat, hw, -⟩ := Cert.Pre_finite_inputs.Finite.finite_of_pre _ _ _ _ (hpre c)
  rw [Cert.ReferenceIdeal.Read.val_main_v3_eq, Cert.ReferenceIdeal.GcnValue.reference_eq,
    (hagree c).1, (hagree c).2.1, (hagree c).2.2.1, (hagree c).2.2.2]
  exact (GcnSpec.productFirstArr_eq_aggregateFirstArr _ _ _ _ hadj hfeat hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
